-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5120 : Shape := ⟨2, ![8192, 5120]⟩
abbrev S1536x5120 : Shape := ⟨2, ![1536, 5120]⟩
abbrev S12x40 : Shape := ⟨2, ![12, 40]⟩
abbrev S5120x1536 : Shape := ⟨2, ![5120, 1536]⟩
abbrev S40x12 : Shape := ⟨2, ![40, 12]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S1536x5120 : S_.BroadcastsInDim S1536x5120 (![] : Fin 0 → Fin S1536x5120.rank)
  reducesTo_S1536x5120_S_d0_1 : S1536x5120.ReducesTo [0, 1] S_
  bcast_S_S12x40 : S_.BroadcastsInDim S12x40 (![] : Fin 0 → Fin S12x40.rank)
  reducesTo_S12x40_S_d0_1 : S12x40.ReducesTo [0, 1] S_
  bcast_S_S5120x1536 : S_.BroadcastsInDim S5120x1536 (![] : Fin 0 → Fin S5120x1536.rank)
  reducesTo_S5120x1536_S_d0_1 : S5120x1536.ReducesTo [0, 1] S_
  bcast_S_S40x12 : S_.BroadcastsInDim S40x12 (![] : Fin 0 → Fin S40x12.rank)
  reducesTo_S40x12_S_d0_1 : S40x12.ReducesTo [0, 1] S_

variable [Facts]

def fn_part1 {F : FTy → Type} [FloatOps F] (main_arg4 : FVec F S12x40 .f32) (main_arg5 : FVec F S5120x1536 .f32) (main_arg6 : FVec F S40x12 .f32) (main_v13 : IVec S_ 1) (main_v16 : IVec S1536x5120 1) : IVec S_ 1 :=
  let main_c_5 : IVec S_ 1 := constantI S_ 1 1#1
  let main_v17 : IVec S_ 1 := (fun x v => Host.reduce IntOp.andi x v reducesTo_S1536x5120_S_d0_1 h_S_) main_v16 main_c_5
  let main_v18 : IVec S_ 1 := andi main_v13 main_v17
  let main_v19 : FVec F S12x40 .f32 := Host.absf main_arg4
  let main_cst_6 : FVec F S_ .f32 := constant S_ .f32 0x7F800000#32
  let main_v20 : FVec F S12x40 .f32 := broadcastInDim S12x40 ![] bcast_S_S12x40 main_cst_6
  let main_v21 : IVec S12x40 1 := cmpf .olt main_v19 main_v20
  let main_c_7 : IVec S_ 1 := constantI S_ 1 1#1
  let main_v22 : IVec S_ 1 := (fun x v => Host.reduce IntOp.andi x v reducesTo_S12x40_S_d0_1 h_S_) main_v21 main_c_7
  let main_v23 : IVec S_ 1 := andi main_v18 main_v22
  let main_v24 : FVec F S5120x1536 .f32 := Host.absf main_arg5
  let main_cst_8 : FVec F S_ .f32 := constant S_ .f32 0x7F800000#32
  let main_v25 : FVec F S5120x1536 .f32 := broadcastInDim S5120x1536 ![] bcast_S_S5120x1536 main_cst_8
  let main_v26 : IVec S5120x1536 1 := cmpf .olt main_v24 main_v25
  let main_c_9 : IVec S_ 1 := constantI S_ 1 1#1
  let main_v27 : IVec S_ 1 := (fun x v => Host.reduce IntOp.andi x v reducesTo_S5120x1536_S_d0_1 h_S_) main_v26 main_c_9
  let main_v28 : IVec S_ 1 := andi main_v23 main_v27
  let main_v29 : FVec F S40x12 .f32 := Host.absf main_arg6
  let main_cst_10 : FVec F S_ .f32 := constant S_ .f32 0x7F800000#32
  let main_v30 : FVec F S40x12 .f32 := broadcastInDim S40x12 ![] bcast_S_S40x12 main_cst_10
  let main_v31 : IVec S40x12 1 := cmpf .olt main_v29 main_v30
  let main_c_11 : IVec S_ 1 := constantI S_ 1 1#1
  let main_v32 : IVec S_ 1 := (fun x v => Host.reduce IntOp.andi x v reducesTo_S40x12_S_d0_1 h_S_) main_v31 main_c_11
  let main_v33 : IVec S_ 1 := andi main_v28 main_v32
  main_v33

def fn {F : FTy → Type} [FloatOps F] (main_arg0 : FVec F S8192x5120 .f32) (main_arg1 : FVec F S1536x5120 .f32) (main_arg2 : FVec F S12x40 .f32) (main_arg3 : FVec F S1536x5120 .f32) (main_arg4 : FVec F S12x40 .f32) (main_arg5 : FVec F S5120x1536 .f32) (main_arg6 : FVec F S40x12 .f32) : IVec S_ 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S1536x5120 .f32 := Host.absf main_arg1
  let main_cst_0 : FVec F S_ .f32 := constant S_ .f32 0x7F800000#32
  let main_v5 : FVec F S1536x5120 .f32 := broadcastInDim S1536x5120 ![] bcast_S_S1536x5120 main_cst_0
  let main_v6 : IVec S1536x5120 1 := cmpf .olt main_v4 main_v5
  let main_c_1 : IVec S_ 1 := constantI S_ 1 1#1
  let main_v7 : IVec S_ 1 := (fun x v => Host.reduce IntOp.andi x v reducesTo_S1536x5120_S_d0_1 h_S_) main_v6 main_c_1
  let main_v8 : IVec S_ 1 := andi main_v3 main_v7
  let main_v9 : FVec F S12x40 .f32 := Host.absf main_arg2
  let main_cst_2 : FVec F S_ .f32 := constant S_ .f32 0x7F800000#32
  let main_v10 : FVec F S12x40 .f32 := broadcastInDim S12x40 ![] bcast_S_S12x40 main_cst_2
  let main_v11 : IVec S12x40 1 := cmpf .olt main_v9 main_v10
  let main_c_3 : IVec S_ 1 := constantI S_ 1 1#1
  let main_v12 : IVec S_ 1 := (fun x v => Host.reduce IntOp.andi x v reducesTo_S12x40_S_d0_1 h_S_) main_v11 main_c_3
  let main_v13 : IVec S_ 1 := andi main_v8 main_v12
  let main_v14 : FVec F S1536x5120 .f32 := Host.absf main_arg3
  let main_cst_4 : FVec F S_ .f32 := constant S_ .f32 0x7F800000#32
  let main_v15 : FVec F S1536x5120 .f32 := broadcastInDim S1536x5120 ![] bcast_S_S1536x5120 main_cst_4
  let main_v16 : IVec S1536x5120 1 := cmpf .olt main_v14 main_v15
  fn_part1 (F := F) main_arg4 main_arg5 main_arg6 main_v13 main_v16
-- ==== Kernel.lean ====
abbrev S8192x5120 : Shape := ⟨2, ![8192, 5120]⟩
abbrev S1536x5120 : Shape := ⟨2, ![1536, 5120]⟩
abbrev S12x40 : Shape := ⟨2, ![12, 40]⟩
abbrev S5120x1536 : Shape := ⟨2, ![5120, 1536]⟩
abbrev S40x12 : Shape := ⟨2, ![40, 12]⟩
abbrev S12x128x40x128 : Shape := ⟨4, ![12, 128, 40, 128]⟩
abbrev S12x1x40x1 : Shape := ⟨4, ![12, 1, 40, 1]⟩
abbrev S40x128x12x128 : Shape := ⟨4, ![40, 128, 12, 128]⟩
abbrev S40x1x12x1 : Shape := ⟨4, ![40, 1, 12, 1]⟩
abbrev S8192x1536 : Shape := ⟨2, ![8192, 1536]⟩
abbrev S128x5120 : Shape := ⟨2, ![128, 5120]⟩
abbrev S128x1536 : Shape := ⟨2, ![128, 1536]⟩
abbrev S256x1536 : Shape := ⟨2, ![256, 1536]⟩
abbrev S256x5120 : Shape := ⟨2, ![256, 5120]⟩

abbrev nBuf : Space → Nat
  | .hbm => 27
  | .vmem => 11
  | .smem => 0
  | _ => 0

abbrev bufTy : (tb : Table) → Fin (tcTables nBuf tb) → BufTy
  | .hbm, ⟨0, _⟩ => ⟨S8192x5120, .f32⟩
  | .hbm, ⟨1, _⟩ => ⟨S1536x5120, .f32⟩
  | .hbm, ⟨2, _⟩ => ⟨S12x40, .f32⟩
  | .hbm, ⟨3, _⟩ => ⟨S1536x5120, .f32⟩
  | .hbm, ⟨4, _⟩ => ⟨S12x40, .f32⟩
  | .hbm, ⟨5, _⟩ => ⟨S5120x1536, .f32⟩
  | .hbm, ⟨6, _⟩ => ⟨S40x12, .f32⟩
  | .hbm, ⟨7, _⟩ => ⟨S12x128x40x128, .f32⟩
  | .hbm, ⟨8, _⟩ => ⟨S12x1x40x1, .f32⟩
  | .hbm, ⟨9, _⟩ => ⟨S12x128x40x128, .f32⟩
  | .hbm, ⟨10, _⟩ => ⟨S12x128x40x128, .f32⟩
  | .hbm, ⟨11, _⟩ => ⟨S1536x5120, .f32⟩
  | .hbm, ⟨12, _⟩ => ⟨S1536x5120, .bf16⟩
  | .hbm, ⟨13, _⟩ => ⟨S12x128x40x128, .f32⟩
  | .hbm, ⟨14, _⟩ => ⟨S12x1x40x1, .f32⟩
  | .hbm, ⟨15, _⟩ => ⟨S12x128x40x128, .f32⟩
  | .hbm, ⟨16, _⟩ => ⟨S12x128x40x128, .f32⟩
  | .hbm, ⟨17, _⟩ => ⟨S1536x5120, .f32⟩
  | .hbm, ⟨18, _⟩ => ⟨S1536x5120, .bf16⟩
  | .hbm, ⟨19, _⟩ => ⟨S40x128x12x128, .f32⟩
  | .hbm, ⟨20, _⟩ => ⟨S40x1x12x1, .f32⟩
  | .hbm, ⟨21, _⟩ => ⟨S40x128x12x128, .f32⟩
  | .hbm, ⟨22, _⟩ => ⟨S40x128x12x128, .f32⟩
  | .hbm, ⟨23, _⟩ => ⟨S5120x1536, .f32⟩
  | .hbm, ⟨24, _⟩ => ⟨S5120x1536, .bf16⟩
  | .hbm, ⟨25, _⟩ => ⟨S8192x1536, .bf16⟩
  | .hbm, ⟨26, _⟩ => ⟨S8192x5120, .f32⟩
  | .local _ .vmem, ⟨0, _⟩ => ⟨S128x5120, .f32⟩
  | .local _ .vmem, ⟨1, _⟩ => ⟨S128x5120, .f32⟩
  | .local _ .vmem, ⟨2, _⟩ => ⟨S1536x5120, .bf16⟩
  | .local _ .vmem, ⟨3, _⟩ => ⟨S1536x5120, .bf16⟩
  | .local _ .vmem, ⟨4, _⟩ => ⟨S128x1536, .bf16⟩
  | .local _ .vmem, ⟨5, _⟩ => ⟨S128x1536, .bf16⟩
  | .local _ .vmem, ⟨6, _⟩ => ⟨S256x1536, .bf16⟩
  | .local _ .vmem, ⟨7, _⟩ => ⟨S256x1536, .bf16⟩
  | .local _ .vmem, ⟨8, _⟩ => ⟨S5120x1536, .bf16⟩
  | .local _ .vmem, ⟨9, _⟩ => ⟨S256x5120, .f32⟩
  | .local _ .vmem, ⟨10, _⟩ => ⟨S256x5120, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5120x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1536x5120_S12x128x40x128 : S1536x5120.ShapeCasts S12x128x40x128
  bcast_S12x40_S12x1x40x1_0_2 : S12x40.BroadcastsInDim S12x1x40x1 (![0, 2] : Fin 2 → Fin S12x1x40x1.rank)
  bcast_S12x1x40x1_S12x128x40x128_0_1_2_3 : S12x1x40x1.BroadcastsInDim S12x128x40x128 (![0, 1, 2, 3] : Fin 4 → Fin S12x128x40x128.rank)
  shapeCasts_S12x128x40x128_S1536x5120 : S12x128x40x128.ShapeCasts S1536x5120
  bitsLt_bf16_f32 : FTy.bits .bf16 < FTy.bits .f32
  shapeCasts_S5120x1536_S40x128x12x128 : S5120x1536.ShapeCasts S40x128x12x128
  bcast_S40x12_S40x1x12x1_0_2 : S40x12.BroadcastsInDim S40x1x12x1 (![0, 2] : Fin 2 → Fin S40x1x12x1.rank)
  bcast_S40x1x12x1_S40x128x12x128_0_1_2_3 : S40x1x12x1.BroadcastsInDim S40x128x12x128 (![0, 1, 2, 3] : Fin 4 → Fin S40x128x12x128.rank)
  shapeCasts_S40x128x12x128_S5120x1536 : S40x128x12x128.ShapeCasts S5120x1536
  inb_S128x5120_S128x5120_0_0 : ∀ a, (![0, 0] : Fin 2 → Nat) a + S128x5120.size a ≤ S128x5120.size a
  h_S128x5120 : 0 < S128x5120.numel
  inb_S1536x5120_S1536x5120_0_0 : ∀ a, (![0, 0] : Fin 2 → Nat) a + S1536x5120.size a ≤ S1536x5120.size a
  h_S1536x5120 : 0 < S1536x5120.numel
  shapeCasts_S1536x5120_S1536x5120 : S1536x5120.ShapeCasts S1536x5120
  inb_S128x1536_S128x1536_0_0 : ∀ a, (![0, 0] : Fin 2 → Nat) a + S128x1536.size a ≤ S128x1536.size a
  h_S128x1536 : 0 < S128x1536.numel
  packedbf16_S128x1536_S128x1536_0_0 : (Rect.unit (s := S128x1536) ![0, 0] S128x1536.size inb_S128x1536_S128x1536_0_0).PackedRows (EltTy.packing .bf16)
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S5120x1536_S5120x1536_0_0 : ∀ a, (![0, 0] : Fin 2 → Nat) a + S5120x1536.size a ≤ S5120x1536.size a
  h_S5120x1536 : 0 < S5120x1536.numel
  shapeCasts_S5120x1536_S5120x1536 : S5120x1536.ShapeCasts S5120x1536
  inb_S256x5120_S256x5120_0_0 : ∀ a, (![0, 0] : Fin 2 → Nat) a + S256x5120.size a ≤ S256x5120.size a
  h_S256x5120 : 0 < S256x5120.numel
  dot_S128x5120_S1536x5120_S128x1536_1_1_0_0_n_n_wf : DotDims.WF S128x5120 S1536x5120 S128x1536 [1] [1] [0] [0] [] []
  dot_S256x1536_S5120x1536_S256x5120_1_1_0_0_n_n_wf : DotDims.WF S256x1536 S5120x1536 S256x5120 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5120.size a ≤ S8192x5120.size a
  hwx0_0 : ∀ i : grid0.Coords, EltTy.bits .f32 = 32 ∨ (Rect.block (s := S8192x5120) S128x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x5120.size a ≤ S1536x5120.size a
  hwx0_1 : ∀ i : grid0.Coords, EltTy.bits .bf16 = 32 ∨ (Rect.block (s := S1536x5120) S1536x5120.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x5120.size a ≤ S1536x5120.size a
  hwx0_2 : ∀ i : grid0.Coords, EltTy.bits .bf16 = 32 ∨ (Rect.block (s := S1536x5120) S1536x5120.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1536.size a ≤ S8192x1536.size a
  hwx0_3 : ∀ i : grid0.Coords, EltTy.bits .bf16 = 32 ∨ (Rect.block (s := S8192x1536) S128x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1536.size a ≤ S8192x1536.size a
  hwx1_0 : ∀ i : grid1.Coords, EltTy.bits .bf16 = 32 ∨ (Rect.block (s := S8192x1536) S256x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5120x1536.size a ≤ S5120x1536.size a
  hwx1_1 : ∀ i : grid1.Coords, EltTy.bits .bf16 = 32 ∨ (Rect.block (s := S5120x1536) S5120x1536.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x5120.size a ≤ S8192x5120.size a
  hwx1_2 : ∀ i : grid1.Coords, EltTy.bits .f32 = 32 ∨ (Rect.block (s := S8192x5120) S256x5120.size (cc1_transform_2 i) (hinb1_2 i)).WholeWords (EltTy.packing .f32)

variable [Facts₀]

def dot_S128x5120_S1536x5120_S128x1536_1_1_0_0_n_n : DotDims S128x5120 S1536x5120 S128x1536 where
  lhsContracting := [1]
  rhsContracting := [1]
  lhsNonContracting := [0]
  rhsNonContracting := [0]
  lhsBatch := []
  rhsBatch := []
  wf := dot_S128x5120_S1536x5120_S128x1536_1_1_0_0_n_n_wf
def dot_S256x1536_S5120x1536_S256x5120_1_1_0_0_n_n : DotDims S256x1536 S5120x1536 S256x5120 where
  lhsContracting := [1]
  rhsContracting := [1]
  lhsNonContracting := [0]
  rhsNonContracting := [0]
  lhsBatch := []
  rhsBatch := []
  wf := dot_S256x1536_S5120x1536_S256x5120_1_1_0_0_n_n_wf

abbrev win0_0 : Pipeline.Window sig grid0 :=
  Pipeline.Window.ofSpec (Memref.whole main_arg0) S128x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1536x5120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1536x5120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S256x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5120x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x5120.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x5120 : Shape := ⟨2, ![8192, 5120]⟩
abbrev S1536x5120 : Shape := ⟨2, ![1536, 5120]⟩
abbrev S12x40 : Shape := ⟨2, ![12, 40]⟩
abbrev S5120x1536 : Shape := ⟨2, ![5120, 1536]⟩
abbrev S40x12 : Shape := ⟨2, ![40, 12]⟩
abbrev S12x128x40x128 : Shape := ⟨4, ![12, 128, 40, 128]⟩
abbrev S12x1x40x1 : Shape := ⟨4, ![12, 1, 40, 1]⟩
abbrev S40x128x12x128 : Shape := ⟨4, ![40, 128, 12, 128]⟩
abbrev S40x1x12x1 : Shape := ⟨4, ![40, 1, 12, 1]⟩
abbrev S8192x1536 : Shape := ⟨2, ![8192, 1536]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1536x5120, .f32⟩
  | .hbm, ⟨2, _⟩ => ⟨S12x40, .f32⟩
  | .hbm, ⟨3, _⟩ => ⟨S1536x5120, .f32⟩
  | .hbm, ⟨4, _⟩ => ⟨S12x40, .f32⟩
  | .hbm, ⟨5, _⟩ => ⟨S5120x1536, .f32⟩
  | .hbm, ⟨6, _⟩ => ⟨S40x12, .f32⟩
  | .hbm, ⟨7, _⟩ => ⟨S12x128x40x128, .f32⟩
  | .hbm, ⟨8, _⟩ => ⟨S12x1x40x1, .f32⟩
  | .hbm, ⟨9, _⟩ => ⟨S12x128x40x128, .f32⟩
  | .hbm, ⟨10, _⟩ => ⟨S12x128x40x128, .f32⟩
  | .hbm, ⟨11, _⟩ => ⟨S1536x5120, .f32⟩
  | .hbm, ⟨12, _⟩ => ⟨S12x128x40x128, .f32⟩
  | .hbm, ⟨13, _⟩ => ⟨S12x1x40x1, .f32⟩
  | .hbm, ⟨14, _⟩ => ⟨S12x128x40x128, .f32⟩
  | .hbm, ⟨15, _⟩ => ⟨S12x128x40x128, .f32⟩
  | .hbm, ⟨16, _⟩ => ⟨S1536x5120, .f32⟩
  | .hbm, ⟨17, _⟩ => ⟨S40x128x12x128, .f32⟩
  | .hbm, ⟨18, _⟩ => ⟨S40x1x12x1, .f32⟩
  | .hbm, ⟨19, _⟩ => ⟨S40x128x12x128, .f32⟩
  | .hbm, ⟨20, _⟩ => ⟨S40x128x12x128, .f32⟩
  | .hbm, ⟨21, _⟩ => ⟨S5120x1536, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S8192x1536, .f32⟩
  | .hbm, ⟨26, _⟩ => ⟨S_, .f32⟩
  | .hbm, ⟨27, _⟩ => ⟨S8192x1536, .f32⟩
  | .hbm, ⟨28, _⟩ => ⟨S8192x1536, .f32⟩
  | .hbm, ⟨29, _⟩ => ⟨S_, .f32⟩
  | .hbm, ⟨30, _⟩ => ⟨S8192x1536, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S8192x5120, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  shapeCasts_S1536x5120_S12x128x40x128 : S1536x5120.ShapeCasts S12x128x40x128
  bcast_S12x40_S12x1x40x1_0_2 : S12x40.BroadcastsInDim S12x1x40x1 (![0, 2] : Fin 2 → Fin S12x1x40x1.rank)
  bcast_S12x1x40x1_S12x128x40x128_0_1_2_3 : S12x1x40x1.BroadcastsInDim S12x128x40x128 (![0, 1, 2, 3] : Fin 4 → Fin S12x128x40x128.rank)
  shapeCasts_S12x128x40x128_S1536x5120 : S12x128x40x128.ShapeCasts S1536x5120
  shapeCasts_S5120x1536_S40x128x12x128 : S5120x1536.ShapeCasts S40x128x12x128
  bcast_S40x12_S40x1x12x1_0_2 : S40x12.BroadcastsInDim S40x1x12x1 (![0, 2] : Fin 2 → Fin S40x1x12x1.rank)
  bcast_S40x1x12x1_S40x128x12x128_0_1_2_3 : S40x1x12x1.BroadcastsInDim S40x128x12x128 (![0, 1, 2, 3] : Fin 4 → Fin S40x128x12x128.rank)
  shapeCasts_S40x128x12x128_S5120x1536 : S40x128x12x128.ShapeCasts S5120x1536
  bcast_S_S8192x1536 : S_.BroadcastsInDim S8192x1536 (![] : Fin 0 → Fin S8192x1536.rank)
  dot_S8192x5120_S1536x5120_S8192x1536_1_1_0_0_n_n_wf : DotDims.WF S8192x5120 S1536x5120 S8192x1536 [1] [1] [0] [0] [] []
  dot_S8192x1536_S5120x1536_S8192x5120_1_1_0_0_n_n_wf : DotDims.WF S8192x1536 S5120x1536 S8192x5120 [1] [1] [0] [0] [] []

variable [Facts₀]

def dot_S8192x5120_S1536x5120_S8192x1536_1_1_0_0_n_n : DotDims S8192x5120 S1536x5120 S8192x1536 where
  lhsContracting := [1]
  rhsContracting := [1]
  lhsNonContracting := [0]
  rhsNonContracting := [0]
  lhsBatch := []
  rhsBatch := []
  wf := dot_S8192x5120_S1536x5120_S8192x1536_1_1_0_0_n_n_wf
def dot_S8192x1536_S5120x1536_S8192x5120_1_1_0_0_n_n : DotDims S8192x1536 S5120x1536 S8192x5120 where
  lhsContracting := [1]
  rhsContracting := [1]
  lhsNonContracting := [0]
  rhsNonContracting := [0]
  lhsBatch := []
  rhsBatch := []
  wf := dot_S8192x1536_S5120x1536_S8192x5120_1_1_0_0_n_n_wf

class Facts : Prop extends Facts₀ where

variable [Facts]
-- ==== Proof.KernelRun.lean ====
/-
  THE RUN OF THE TWO KERNELS, WITH THE RESULT NAMED. The program is a stretch of host operations (the three weight
  matrices rescaled block by block), then the gate/up kernel over 64 row tiles, then the down kernel over 32 row tiles.
  Every weakly fair execution terminates without a fault, the seven arguments end as launched, and the result array
  ends at what the down kernel's write-backs leave: the fold of its 32 flushed blocks over the array's contents when
  that kernel was entered. The buffer contents at each boundary are the fold through the program: the launch memory,
  after the host operations, after the first kernel's write-backs, after the second's; the final memory is read against
  the last of these at every buffer that no scope owns, the result's among them.
-/
import proofs.«129905_j19095424598383_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer after the last boundary is the down kernel's output array after all its write-backs. -/
theorem last_result (c : Dev nD) :
    W3 m ρ c (Proc.devRef .tc main_v19) = (dat1 (V2 m ρ) c).arrAt 2 cfg1.N :=
  W3_arr m ρ c 2

set_option backward.isDefEq.respectTransparency.types false in
/-- Every weakly fair execution terminates, nothing faulting; the result array ends at the down kernel's output array
    after its write-backs, and each argument as launched. -/
theorem run : θ_run defs (onTc (τ := τ) (main (F := F))) ⟨m, fun _ => 0, ρ⟩ (fun r => ∀ c : Dev nD,
      r.2.mem ((c.tc : Thread nD τ).loc main_v19) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v19 (by decide))).trans (last_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Named

end
-- ==== Proof.LibContractLast.lean ====
/-
  A MATRIX PRODUCT THAT CONTRACTS THE LAST AXIS OF BOTH OPERANDS, read at an index, at the ideal values.
  For an m×k matrix A and an n×k matrix B — the layout jnp's einsum 'th,fh->tf' keeps, each output entry the inner
  product of a row of A with a row of B — the product on the matrix unit into a zero accumulator, and the host's
  dot_general with the same dimension numbers, are at (a, b) the sum over c of A(a, c) · B(b, c). Every lemma holds for
  all extents m, k, n.
-/
import Idealize.ShloMosaic.PureOps.Ideal
import Idealize.ShloMosaic.PureOps.Ideal.Laws
import Idealize.ShloMosaic.Lib.ValueIdx

noncomputable section

open scoped BigOperators

namespace Idealize.ShloMosaic.ContractLast

open Idealize.ShloMosaic Idealize.ShloMosaic.ValueIdx

/-- The one contracted coordinate, as a number below `k`. -/
abbrev contr (m k n : Nat) : (DotDims.transposedRhs m k n).contr.Idx ≃ Fin k :=
  contrEquiv1 (DotDims.transposedRhs m k n) k rfl rfl

/-- The left operand's free axis follows the output's row. -/
theorem lhsIdx_val0 {m k n : Nat} (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's last axis is the contracted coordinate. -/
theorem lhsIdx_val1 {m k n : Nat} (j : (⟨2, ![m, n]⟩ : Shape).Idx) (q : (DotDims.transposedRhs m k n).contr.Idx) :
    ((DotDims.transposedRhs m k n).lhsIdx j q 1).val = (q ⟨0, (Nat.zero_lt_one : 0 < 1)⟩).val :=
  (DotDims.transposedRhs m k n).lhsIdx_val_of_single rfl j q

/-- The right operand's free axis follows the output's column. -/
theorem rhsIdx_val0 {m k n : Nat} (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's last axis is the contracted coordinate. -/
theorem rhsIdx_val1 {m k n : Nat} (j : (⟨2, ![m, n]⟩ : Shape).Idx) (q : (DotDims.transposedRhs m k n).contr.Idx) :
    ((DotDims.transposedRhs m k n).rhsIdx j q 1).val = (q ⟨0, (Nat.zero_lt_one : 0 < 1)⟩).val :=
  (DotDims.transposedRhs m k n).rhsIdx_val_of_single rfl j q

/-- The left operand's index at output `(a, b)` and contracted coordinate `c` is `(a, c)`. -/
theorem lhsIdx_eq {m k n : Nat} (a : Fin m) (b : Fin n) (c : Fin k) :
    (DotDims.transposedRhs m k n).lhsIdx (ix2 a b) ((contr m k n).symm c) = ix2 a c := by
  have hc := contrEquiv1_symm_val (DotDims.transposedRhs m k n) k rfl rfl c
  funext ax; apply Fin.ext
  match ax with
  | ⟨0, _⟩ => exact lhsIdx_val0 _ _
  | ⟨1, _⟩ => exact (lhsIdx_val1 _ _).trans hc

/-- The right operand's index at output `(a, b)` and contracted coordinate `c` is `(b, c)`. -/
theorem rhsIdx_eq {m k n : Nat} (a : Fin m) (b : Fin n) (c : Fin k) :
    (DotDims.transposedRhs m k n).rhsIdx (ix2 a b) ((contr m k n).symm c) = ix2 b c := by
  have hc := contrEquiv1_symm_val (DotDims.transposedRhs m k n) k rfl rfl c
  funext ax; apply Fin.ext
  match ax with
  | ⟨0, _⟩ => exact rhsIdx_val0 _ _
  | ⟨1, _⟩ => exact (rhsIdx_val1 _ _).trans hc

/-- The product on the matrix unit into the zero accumulator, read at `(a, b)`: the inner product of row `a` of the
    left operand with row `b` of the right. -/
theorem matmul_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contr m k n).symm]
  refine Finset.sum_congr rfl fun c _ => ?_
  rw [lhsIdx_eq, rhsIdx_eq]

/-- The host's dot_general with the same dimension numbers, read at `(a, b)`: the same inner product. -/
theorem dotGeneral_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  simp only [Host.dotGeneral]
  rw [Ideal.dotGeneral_apply, ← Equiv.sum_comp (contr m k n).symm]
  refine Finset.sum_congr rfl fun c _ => ?_
  rw [lhsIdx_eq, rhsIdx_eq]

end Idealize.ShloMosaic.ContractLast

end
-- ==== Proof.GatedMlp.lean ====
/-
  THE GATED FEED-FORWARD LAYER, index by index, on the extended reals. With x the 8192×5120 tokens, Wg and Wu the
  1536×5120 gate and up weights and Wd the 5120×1536 down weights (each already rescaled), the layer is

      gate(t, f) = ∑ₖ x(t, k) · Wg(f, k)          up(t, f) = ∑ₖ x(t, k) · Wu(f, k)
      hidden(t, f) = (gate(t, f) · σ(gate(t, f))) · up(t, f),      σ(y) = 1 / (1 + e^(−y))
      out(t, o) = ∑_f hidden(t, f) · Wd(o, f).

  Every row of `hidden` and of `out` depends on the same row of x only, which is why the rows may be computed in tiles
  of any height; no sum is reordered and nothing is distributed, so the two programs agree at every extended real.
-/
import Idealize.ShloMosaic.PureOps.Ideal
import Idealize.ShloMosaic.Lib.ValueIdx

noncomputable section

open scoped BigOperators

namespace Cert.GatedMlp

open Idealize.ShloMosaic Idealize.ShloMosaic.ValueIdx

/-- The inner product of row `t` of the tokens with row `f` of a 1536×5120 weight matrix. -/
def proj (x : (⟨2, ![8192, 5120]⟩ : Shape).Idx → EReal) (w : (⟨2, ![1536, 5120]⟩ : Shape).Idx → EReal)
    (t : Fin 8192) (f : Fin 1536) : EReal :=
  ∑ k : Fin 5120, x (ix2 t k) * w (ix2 f k)

/-- The gate passed through y · σ(y), times the up projection. -/
def gated (g u : EReal) : EReal := (g * Ideal.logistic g) * u

/-- The hidden activations at (t, f). -/
def hidden (x : (⟨2, ![8192, 5120]⟩ : Shape).Idx → EReal) (wg wu : (⟨2, ![1536, 5120]⟩ : Shape).Idx → EReal)
    (t : Fin 8192) (f : Fin 1536) : EReal :=
  gated (proj x wg t f) (proj x wu t f)

/-- The hidden activations as an array. -/
def hiddenArr (x : (⟨2, ![8192, 5120]⟩ : Shape).Idx → EReal) (wg wu : (⟨2, ![1536, 5120]⟩ : Shape).Idx → EReal) :
    (⟨2, ![8192, 1536]⟩ : Shape).Idx → EReal :=
  fun i => hidden x wg wu (i 0) (i 1)

/-- The down projection at (t, o) of an array of hidden activations. -/
def down (h : (⟨2, ![8192, 1536]⟩ : Shape).Idx → EReal) (wd : (⟨2, ![5120, 1536]⟩ : Shape).Idx → EReal)
    (t : Fin 8192) (o : Fin 5120) : EReal :=
  ∑ f : Fin 1536, h (ix2 t f) * wd (ix2 o f)

/-- The layer's result as an array. -/
def outArr (h : (⟨2, ![8192, 1536]⟩ : Shape).Idx → EReal) (wd : (⟨2, ![5120, 1536]⟩ : Shape).Idx → EReal) :
    (⟨2, ![8192, 5120]⟩ : Shape).Idx → EReal :=
  fun i => down h wd (i 0) (i 1)

end Cert.GatedMlp

end
-- ==== Proof.GateUpBlock.lean ====
/-
  ONE ROW TILE OF THE GATE/UP KERNEL, read at an index at the ideal values. The body takes a 128×5120 tile of tokens and
  the two whole 1536×5120 weight matrices, forms both products by contracting the last axis of each operand into a
  zero accumulator, and stores (g · σ(g)) · u; changing the float format is the identity here. So entry (p, q) of
  what it stores is the gated value of the two inner products of the tile's row p with row q of each weight matrix;
  and when the tile's row p is row `i 0` of the token array and the loaded weights are the weight arrays, that is the
  hidden activation at `i`.
-/
import proofs.«129905_j19095424598383_2_alg».proof.Proof.Gen.KernelIdeal.Skeleton
import proofs.«129905_j19095424598383_2_alg».proof.Proof.LibContractLast
import proofs.«129905_j19095424598383_2_alg».proof.Proof.GatedMlp
import Idealize.ShloMosaic.Lib.Pipeline.Value

noncomputable section

open scoped BigOperators

namespace Cert.KernelIdeal.GateUp

open Cert.KernelIdeal Cert.KernelIdeal.Gen Idealize.ShloMosaic Idealize.ShloMosaic.ValueIdx

/-- The tile's product contracts the last axis of both operands. -/
theorem dims_eq : dot_S128x5120_S1536x5120_S128x1536_1_1_0_0_n_n = DotDims.transposedRhs 128 5120 1536 := rfl

/-- The product of a 128×5120 tile with a 1536×5120 matrix into the zero accumulator, at (p, q): the inner product of
    row p of the tile with row q of the matrix. -/
theorem product_apply (A : FVec Ideal S128x5120 .bf16) (B : FVec Ideal S1536x5120 .bf16) (p : Fin 128) (q : Fin 1536) :
    matmul dot_S128x5120_S1536x5120_S128x1536_1_1_0_0_n_n none A B (constant (F := Ideal) S128x1536 .f32 0x00000000#32) (ix2 p q)
      = ∑ k : Fin 5120, A (ix2 p k) * B (ix2 q k) :=
  ContractLast.matmul_zero_apply none A B p q

/-- What the body stores, at (p, q): the gated value of the two inner products. -/
theorem stored_apply (x0 : Vec Ideal S128x5120 .f32) (x1 x2 : Vec Ideal S1536x5120 .bf16) (p : Fin 128) (q : Fin 1536) :
    k0_pay1 (F := Ideal) x0 x1 x2 (ix2 p q)
      = GatedMlp.gated (∑ k : Fin 5120, x0 (ix2 p k) * x1 (ix2 q k)) (∑ k : Fin 5120, x0 (ix2 p k) * x2 (ix2 q k)) := by
  unfold k0_pay1
  simp only [shapeCast_self]
  exact congrArg₂ GatedMlp.gated (product_apply (truncf .bf16 x0 bitsLt_bf16_f32) x1 p q)
    (product_apply (truncf .bf16 x0 bitsLt_bf16_f32) x2 p q)

/-- A tile whose row p is row `i 0` of the tokens, beside weights whose row q is row `i 1` of the weight arrays, stores
    at (p, q) the hidden activation at `i`. -/
theorem stored_eq_hidden (X : (⟨2, ![8192, 5120]⟩ : Shape).Idx → EReal) (Wg Wu : (⟨2, ![1536, 5120]⟩ : Shape).Idx → EReal)
    (x0 : Vec Ideal S128x5120 .f32) (x1 x2 : Vec Ideal S1536x5120 .bf16)
    (i : (⟨2, ![8192, 1536]⟩ : Shape).Idx) (p : Fin 128) (q : Fin 1536)
    (h0 : ∀ k : Fin 5120, x0 (ix2 p k) = X (ix2 (i 0) k))
    (h1 : ∀ k : Fin 5120, x1 (ix2 q k) = Wg (ix2 (i 1) k))
    (h2 : ∀ k : Fin 5120, x2 (ix2 q k) = Wu (ix2 (i 1) k)) :
    k0_pay1 (F := Ideal) x0 x1 x2 (ix2 p q) = GatedMlp.hiddenArr X Wg Wu i := by
  rw [stored_apply]
  unfold GatedMlp.hiddenArr GatedMlp.hidden GatedMlp.proj
  refine congrArg₂ GatedMlp.gated (Finset.sum_congr rfl fun k _ => ?_) (Finset.sum_congr rfl fun k _ => ?_)
  · rw [h0 k, h1 k]
  · rw [h0 k, h2 k]

end Cert.KernelIdeal.GateUp

end
-- ==== Proof.HiddenArray.lean ====
/-
  THE HIDDEN ACTIVATIONS AFTER THE GATE/UP KERNEL. The kernel visits 64 grid points; at point t it reads rows
  128·t … 128·t + 127 of the tokens and both whole weight matrices, and writes back rows 128·t … 128·t + 127 of the
  8192×1536 output. A block's coordinate is its index times its extent plus the coordinate inside the block, so what
  point t writes back is block t of ONE whole-array function, the hidden activations of the arrays the kernel was
  entered with; the 64 blocks tile the output (row r lies in block r / 128), so the output ends holding that function.
-/
import proofs.«129905_j19095424598383_2_alg».proof.Proof.Gen.KernelIdeal.Frame
import proofs.«129905_j19095424598383_2_alg».proof.Proof.GateUpBlock
import Idealize.ShloMosaic.Lib.Pipeline.Value

set_option maxRecDepth 16384

noncomputable section

namespace Cert.KernelIdeal.HiddenArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 64 points: the token tile and the output tile sit at block row t, block column 0;
    the weights are the one block (0, 0). -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 ∧ win0_3.index t (1 : Fin 2) = 0 :=
  (by decide +kernel : ∀ t : Fin grid0.N, _)

/-- Every block row of the output is some point's. -/
theorem index_onto : ∀ q0 : Fin 64, ∃ t : Fin cfg0.N, win0_3.index t = ![q0.val, 0] :=
  (by decide +kernel : ∀ q0 : Fin 64, ∃ t : Fin grid0.N, win0_3.index t = ![q0.val, 0])

/-- WHAT POINT t WRITES BACK is block t of the hidden activations of the arrays as the kernel finds them. -/
theorem flushed_eq (c : Dev nD) (t : Fin cfg0.N) :
    (dat0 V c).flushed 3 t = ((cfg0.win 3).blk t).view.read (Elt Ideal)
      (GatedMlp.hiddenArr (V c main_arg0) (V c main_v5) (V c main_v11)) := by
  show (cfg0.win 3).cut (grid0.coords t) ((dat0 V c).after 3 t) = _
  rw [after0_3]
  unfold out0_3
  rw [View.canon_unit_zero zero_offsets]
  simp only [View.ld_unit_zero (S := S128x5120) zero_offsets, View.ld_unit_zero (S := S1536x5120) zero_offsets]
  obtain ⟨e0, e1, e2, e3, e4, e5, e6, e7⟩ := index_maps t
  funext j
  show k0_pay1 (F := Ideal) (iblk0 V c 0 t) (iblk0 V c 1 t) (iblk0 V c 2 t) j
    = GatedMlp.hiddenArr (V c main_arg0) (V c main_v5) (V c main_v11) (((cfg0.win 3).blk t).view.emb j)
  refine (congrArg (k0_pay1 (F := Ideal) (iblk0 V c 0 t) (iblk0 V c 1 t) (iblk0 V c 2 t)) (eq_ix2 j)).trans ?_
  refine GateUp.stored_eq_hidden (V c main_arg0) (V c main_v5) (V c main_v11) (iblk0 V c 0 t) (iblk0 V c 1 t) (iblk0 V c 2 t)
    (((cfg0.win 3).blk t).view.emb j) (j 0) (j 1) (fun k => ?_) (fun k => ?_) (fun k => ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 5120 + 1 * k.val = k.val; omega
  · show V c main_v5 (((cfg0.win 1).blk t).view.emb (ix2 (j 1) k)) = V c main_v5 (ix2 ((((cfg0.win 3).blk t).view.emb j) 1) k)
    refine congrArg (V c main_v5) (funext fun a => Fin.ext ?_)
    match a with
    | ⟨0, _⟩ => show win0_1.index t (0 : Fin 2) * 1536 + 1 * (j 1).val = win0_3.index t (1 : Fin 2) * 1536 + 1 * (j 1).val; omega
    | ⟨1, _⟩ => show win0_1.index t (1 : Fin 2) * 5120 + 1 * k.val = k.val; omega
  · show V c main_v11 (((cfg0.win 2).blk t).view.emb (ix2 (j 1) k)) = V c main_v11 (ix2 ((((cfg0.win 3).blk t).view.emb j) 1) k)
    refine congrArg (V c main_v11) (funext fun a => Fin.ext ?_)
    match a with
    | ⟨0, _⟩ => show win0_2.index t (0 : Fin 2) * 1536 + 1 * (j 1).val = win0_3.index t (1 : Fin 2) * 1536 + 1 * (j 1).val; omega
    | ⟨1, _⟩ => show win0_2.index t (1 : Fin 2) * 5120 + 1 * k.val = k.val; omega

/-- An index of the output is in point t's block iff each coordinate is in the block's range on its axis. -/
theorem mem_block (t : Fin cfg0.N) (i : S8192x1536.Idx) :
    i ∈ ((cfg0.win 3).blk t).view.set ↔ ∀ a : Fin 2, win0_3.index t a * S128x1536.size a ≤ (i a).val
      ∧ (i a).val < win0_3.index t a * S128x1536.size a + S128x1536.size a := by
  show i ∈ ((View.whole main_v18).slice (win0_3.rect t)).set ↔ _
  rw [View.set_slice_whole, Rect.mem_set_unit]
  exact Iff.rfl

/-- The 64 blocks tile the output: row r lies in block r / 128. -/
theorem covered (i : S8192x1536.Idx) :
    ∃ t : Fin cfg0.N, (cfg0.win 3).flush t = true ∧ i ∈ ((cfg0.win 3).blk t).view.set := by
  have hi0 : (i 0).val < 8192 := (i 0).isLt
  have hi1 : (i 1).val < 1536 := (i 1).isLt
  obtain ⟨t, ht⟩ := index_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1536 ≤ (i 1).val ∧ (i 1).val < win0_3.index t (1 : Fin 2) * 1536 + 1536; omega

/-- THE OUTPUT ARRAY after the kernel: the hidden activations of the arrays it was entered with. -/
theorem final (c : Dev nD) :
    (dat0 V c).arrAt 3 cfg0.N = GatedMlp.hiddenArr (V c main_arg0) (V c main_v5) (V c main_v11) :=
  (dat0 V c).arrAt_eq_of_cover 3 _ (fun t _ => flushed_eq V c t) covered

end Cert.KernelIdeal.HiddenArray

end
-- ==== Proof.DownBlock.lean ====
/-
  ONE ROW TILE OF THE DOWN KERNEL, read at an index at the ideal values. The body takes a 256×1536 tile of hidden
  activations and the whole 5120×1536 down weights and stores their product, the last axis of each contracted into a
  zero accumulator: entry (p, o) is the inner product of the tile's row p with row o of the weights. When the tile's
  row p is row `i 0` of an array of hidden activations and the loaded weights are the weight array, that is the
  layer's result at `i`.
-/
import proofs.«129905_j19095424598383_2_alg».proof.Proof.Gen.KernelIdeal.Skeleton
import proofs.«129905_j19095424598383_2_alg».proof.Proof.LibContractLast
import proofs.«129905_j19095424598383_2_alg».proof.Proof.GatedMlp
import Idealize.ShloMosaic.Lib.Pipeline.Value

noncomputable section

open scoped BigOperators

namespace Cert.KernelIdeal.Down

open Cert.KernelIdeal Cert.KernelIdeal.Gen Idealize.ShloMosaic Idealize.ShloMosaic.ValueIdx

/-- The tile's product contracts the last axis of both operands. -/
theorem dims_eq : dot_S256x1536_S5120x1536_S256x5120_1_1_0_0_n_n = DotDims.transposedRhs 256 1536 5120 := rfl

/-- What the body stores, at (p, o): the inner product of row p of the tile with row o of the weights. -/
theorem stored_apply (x0 : Vec Ideal S256x1536 .bf16) (x1 : Vec Ideal S5120x1536 .bf16) (p : Fin 256) (o : Fin 5120) :
    k1_pay1 (F := Ideal) x0 x1 (ix2 p o) = ∑ f : Fin 1536, x0 (ix2 p f) * x1 (ix2 o f) := by
  unfold k1_pay1
  simp only [shapeCast_self]
  exact ContractLast.matmul_zero_apply none x0 x1 p o

/-- A tile whose row p is row `i 0` of the hidden activations, beside weights whose row o is row `i 1` of the weight
    array, stores at (p, o) the layer's result at `i`. -/
theorem stored_eq_out (H : (⟨2, ![8192, 1536]⟩ : Shape).Idx → EReal) (Wd : (⟨2, ![5120, 1536]⟩ : Shape).Idx → EReal)
    (x0 : Vec Ideal S256x1536 .bf16) (x1 : Vec Ideal S5120x1536 .bf16)
    (i : (⟨2, ![8192, 5120]⟩ : Shape).Idx) (p : Fin 256) (o : Fin 5120)
    (h0 : ∀ f : Fin 1536, x0 (ix2 p f) = H (ix2 (i 0) f))
    (h1 : ∀ f : Fin 1536, x1 (ix2 o f) = Wd (ix2 (i 1) f)) :
    k1_pay1 (F := Ideal) x0 x1 (ix2 p o) = GatedMlp.outArr H Wd i := by
  rw [stored_apply]
  unfold GatedMlp.outArr GatedMlp.down
  refine Finset.sum_congr rfl fun f _ => ?_
  rw [h0 f, h1 f]

end Cert.KernelIdeal.Down

end
-- ==== Proof.OutArray.lean ====
/-
  THE RESULT AFTER THE DOWN KERNEL. The kernel visits 32 grid points; at point t it reads rows 256·t … 256·t + 255 of
  the 8192×1536 hidden activations and the whole 5120×1536 down weights, and writes back rows 256·t … 256·t + 255 of
  the 8192×5120 result. What point t writes back is block t of ONE whole-array function, the down projection of the
  arrays the kernel was entered with; the 32 blocks tile the result (row r lies in block r / 256), so the result ends
  holding that function.
-/
import proofs.«129905_j19095424598383_2_alg».proof.Proof.Gen.KernelIdeal.Frame
import proofs.«129905_j19095424598383_2_alg».proof.Proof.DownBlock
import Idealize.ShloMosaic.Lib.Pipeline.Value

set_option maxRecDepth 16384

noncomputable section

namespace Cert.KernelIdeal.OutArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 32 points: the hidden tile and the result tile sit at block row t, block column 0;
    the weights are the one block (0, 0). -/
theorem index_maps : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 31 ∧ win1_2.index t (1 : Fin 2) = 0 :=
  (by decide +kernel : ∀ t : Fin grid1.N, _)

/-- Every block row of the result is some point's. -/
theorem index_onto : ∀ q0 : Fin 32, ∃ t : Fin cfg1.N, win1_2.index t = ![q0.val, 0] :=
  (by decide +kernel : ∀ q0 : Fin 32, ∃ t : Fin grid1.N, win1_2.index t = ![q0.val, 0])

/-- WHAT POINT t WRITES BACK is block t of the down projection of the arrays as the kernel finds them. -/
theorem flushed_eq (c : Dev nD) (t : Fin cfg1.N) :
    (dat1 V c).flushed 2 t = ((cfg1.win 2).blk t).view.read (Elt Ideal)
      (GatedMlp.outArr (V c main_v18) (V c main_v17)) := by
  show (cfg1.win 2).cut (grid1.coords t) ((dat1 V c).after 2 t) = _
  rw [after1_2]
  unfold out1_2
  rw [View.canon_unit_zero zero_offsets]
  simp only [View.ld_unit_zero (S := S256x1536) zero_offsets, View.ld_unit_zero (S := S5120x1536) zero_offsets]
  obtain ⟨e0, e1, e2, e3, e4, e5⟩ := index_maps t
  funext j
  show k1_pay1 (F := Ideal) (iblk1 V c 0 t) (iblk1 V c 1 t) j
    = GatedMlp.outArr (V c main_v18) (V c main_v17) (((cfg1.win 2).blk t).view.emb j)
  refine (congrArg (k1_pay1 (F := Ideal) (iblk1 V c 0 t) (iblk1 V c 1 t)) (eq_ix2 j)).trans ?_
  refine Down.stored_eq_out (V c main_v18) (V c main_v17) (iblk1 V c 0 t) (iblk1 V c 1 t)
    (((cfg1.win 2).blk t).view.emb j) (j 0) (j 1) (fun f => ?_) (fun f => ?_)
  · show V c main_v18 (((cfg1.win 0).blk t).view.emb (ix2 (j 0) f)) = V c main_v18 (ix2 ((((cfg1.win 2).blk t).view.emb j) 0) f)
    refine congrArg (V c main_v18) (funext fun a => Fin.ext ?_)
    match a with
    | ⟨0, _⟩ => show win1_0.index t (0 : Fin 2) * 256 + 1 * (j 0).val = win1_2.index t (0 : Fin 2) * 256 + 1 * (j 0).val; omega
    | ⟨1, _⟩ => show win1_0.index t (1 : Fin 2) * 1536 + 1 * f.val = f.val; omega
  · show V c main_v17 (((cfg1.win 1).blk t).view.emb (ix2 (j 1) f)) = V c main_v17 (ix2 ((((cfg1.win 2).blk t).view.emb j) 1) f)
    refine congrArg (V c main_v17) (funext fun a => Fin.ext ?_)
    match a with
    | ⟨0, _⟩ => show win1_1.index t (0 : Fin 2) * 5120 + 1 * (j 1).val = win1_2.index t (1 : Fin 2) * 5120 + 1 * (j 1).val; omega
    | ⟨1, _⟩ => show win1_1.index t (1 : Fin 2) * 1536 + 1 * f.val = f.val; omega

/-- An index of the result is in point t's block iff each coordinate is in the block's range on its axis. -/
theorem mem_block (t : Fin cfg1.N) (i : S8192x5120.Idx) :
    i ∈ ((cfg1.win 2).blk t).view.set ↔ ∀ a : Fin 2, win1_2.index t a * S256x5120.size a ≤ (i a).val
      ∧ (i a).val < win1_2.index t a * S256x5120.size a + S256x5120.size a := by
  show i ∈ ((View.whole main_v19).slice (win1_2.rect t)).set ↔ _
  rw [View.set_slice_whole, Rect.mem_set_unit]
  exact Iff.rfl

/-- The 32 blocks tile the result: row r lies in block r / 256. -/
theorem covered (i : S8192x5120.Idx) :
    ∃ t : Fin cfg1.N, (cfg1.win 2).flush t = true ∧ i ∈ ((cfg1.win 2).blk t).view.set := by
  have hi0 : (i 0).val < 8192 := (i 0).isLt
  have hi1 : (i 1).val < 5120 := (i 1).isLt
  obtain ⟨t, ht⟩ := index_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 5120 ≤ (i 1).val ∧ (i 1).val < win1_2.index t (1 : Fin 2) * 5120 + 5120; omega

/-- THE RESULT ARRAY after the kernel: the down projection of the arrays it was entered with. -/
theorem final (c : Dev nD) :
    (dat1 V c).arrAt 2 cfg1.N = GatedMlp.outArr (V c main_v18) (V c main_v17) :=
  (dat1 V c).arrAt_eq_of_cover 2 _ (fun t _ => flushed_eq V c t) covered

end Cert.KernelIdeal.OutArray

end
-- ==== Proof.Entry.lean ====
/-
  WHAT EACH KERNEL IS ENTERED WITH, as functions of the launch memory. The host operations before the kernels rescale
  each weight matrix block by block — split both axes into (block, offset), multiply by the per-block scale broadcast
  over the offsets, merge the axes back — and change its float format, which is the identity at the ideal values; no
  host operation writes the tokens. So the gate/up kernel is entered with the tokens as launched and the rescaled gate
  and up weights, and the down kernel with the gate/up kernel's output — the hidden activations of those three — and
  the rescaled down weights, which the first kernel does not touch. The result array after the down kernel is then
  the layer of the launch memory's arguments.
-/
import proofs.«129905_j19095424598383_2_alg».proof.Proof.Gen.KernelIdeal.Frame
import proofs.«129905_j19095424598383_2_alg».proof.Proof.Gen.ReferenceIdeal.Read
import proofs.«129905_j19095424598383_2_alg».proof.Proof.HiddenArray
import proofs.«129905_j19095424598383_2_alg».proof.Proof.OutArray
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.Read (val_main_v4 val_main_v9 val_main_v14)

variable (m : (ℓ : Loc nD τ sig) → Buf (Elt Ideal) ℓ) (ρ : Dev nD → PrngReg)

/-- The gate/up kernel finds the tokens as launched. -/
theorem tokens (c : Dev nD) :
    (V1 m ρ c main_arg0 : S8192x5120.Idx → EReal) = m ((c : Thread nD τ).loc main_arg0) := by
  dsimp only [V1, W1, hostOps0]
  after_results <;> rfl

/-- It finds the gate weights rescaled block by block. -/
theorem gate_weights (c : Dev nD) :
    (V1 m ρ c main_v5 : S1536x5120.Idx → EReal)
      = val_main_v4 (F := Ideal) (m ((c : Thread nD τ).loc main_arg1)) (m ((c : Thread nD τ).loc main_arg2)) := by
  dsimp only [V1, W1, hostOps0]
  after_results
  rfl

/-- It finds the up weights rescaled block by block. -/
theorem up_weights (c : Dev nD) :
    (V1 m ρ c main_v11 : S1536x5120.Idx → EReal)
      = val_main_v9 (F := Ideal) (m ((c : Thread nD τ).loc main_arg3)) (m ((c : Thread nD τ).loc main_arg4)) := by
  dsimp only [V1, W1, hostOps0]
  after_results
  rfl

/-- The down kernel finds the down weights rescaled block by block: the gate/up kernel leaves them alone. -/
theorem down_weights (c : Dev nD) :
    (V2 m ρ c main_v17 : S5120x1536.Idx → EReal)
      = val_main_v14 (F := Ideal) (m ((c : Thread nD τ).loc main_arg5)) (m ((c : Thread nD τ).loc main_arg6)) := by
  refine (W2_of_ne m ρ c main_v17 (by decide)).trans ?_
  dsimp only [W1, hostOps0]
  after_results
  rfl

/-- The down kernel finds the hidden activations of the launch memory's tokens and rescaled gate and up weights. -/
theorem hidden_activations (c : Dev nD) :
    (V2 m ρ c main_v18 : S8192x1536.Idx → EReal)
      = GatedMlp.hiddenArr (m ((c : Thread nD τ).loc main_arg0))
          (val_main_v4 (F := Ideal) (m ((c : Thread nD τ).loc main_arg1)) (m ((c : Thread nD τ).loc main_arg2)))
          (val_main_v9 (F := Ideal) (m ((c : Thread nD τ).loc main_arg3)) (m ((c : Thread nD τ).loc main_arg4))) := by
  refine (W2_arr m ρ c 3).trans ((HiddenArray.final (V1 m ρ) c).trans ?_)
  rw [tokens m ρ c, gate_weights m ρ c, up_weights m ρ c]

/-- THE RESULT ARRAY after both kernels: the layer of the launch memory's arguments. -/
theorem result (c : Dev nD) :
    (dat1 (V2 m ρ) c).arrAt 2 cfg1.N
      = GatedMlp.outArr
          (GatedMlp.hiddenArr (m ((c : Thread nD τ).loc main_arg0))
            (val_main_v4 (F := Ideal) (m ((c : Thread nD τ).loc main_arg1)) (m ((c : Thread nD τ).loc main_arg2)))
            (val_main_v9 (F := Ideal) (m ((c : Thread nD τ).loc main_arg3)) (m ((c : Thread nD τ).loc main_arg4))))
          (val_main_v14 (F := Ideal) (m ((c : Thread nD τ).loc main_arg5)) (m ((c : Thread nD τ).loc main_arg6))) :=
  (OutArray.final (V2 m ρ) c).trans (congrArg₂ GatedMlp.outArr (hidden_activations m ρ c) (down_weights m ρ c))

end Cert.KernelIdeal.Entry

end
-- ==== Proof.ReferenceLayer.lean ====
/-
  THE REFERENCE IS THE LAYER. Read one operation at a time, the reference's result at (t, o) is the sum over f of its
  hidden activations at (t, f) times the rescaled down weights at (o, f); its hidden activations are
  (g · (1 / (1 + e^(−g)))) · u with g and u the inner products of row t of the tokens with row f of the rescaled gate
  and up weights. The quotient 1 / (1 + e^(−g)) is σ(g) by definition, on every extended real, and the literal 1.0 is
  the number one; nothing else is needed.
-/
import proofs.«129905_j19095424598383_2_alg».proof.Proof.Gen.ReferenceIdeal.Read
import proofs.«129905_j19095424598383_2_alg».proof.Proof.GatedMlp

noncomputable section

open scoped BigOperators

namespace Cert.ReferenceIdeal.Layer

open Cert.ReferenceIdeal Cert.ReferenceIdeal.Read Idealize.ShloMosaic Idealize.ShloMosaic.ValueIdx

/-- The float word of 1.0 is the number one. -/
theorem one_word : Ideal.ofBits .f32 0x3F800000#32 = 1 := by
  simp [Ideal.ofBits, Ideal.ieee, -EReal.coe_mul]; norm_num

theorem gate_lhs (j : S8192x1536.Idx) (k : Fin 5120) : lidx_main_v15 j k = ix2 (n0 := 8192) (n1 := 5120) (j 0) k :=
  funext fun a => Fin.ext (by match a with | ⟨0, _⟩ => rfl | ⟨1, _⟩ => rfl)
theorem gate_rhs (j : S8192x1536.Idx) (k : Fin 5120) : ridx_main_v15 j k = ix2 (n0 := 1536) (n1 := 5120) (j 1) k :=
  funext fun a => Fin.ext (by match a with | ⟨0, _⟩ => rfl | ⟨1, _⟩ => rfl)
theorem up_lhs (j : S8192x1536.Idx) (k : Fin 5120) : lidx_main_v16 j k = ix2 (n0 := 8192) (n1 := 5120) (j 0) k :=
  funext fun a => Fin.ext (by match a with | ⟨0, _⟩ => rfl | ⟨1, _⟩ => rfl)
theorem up_rhs (j : S8192x1536.Idx) (k : Fin 5120) : ridx_main_v16 j k = ix2 (n0 := 1536) (n1 := 5120) (j 1) k :=
  funext fun a => Fin.ext (by match a with | ⟨0, _⟩ => rfl | ⟨1, _⟩ => rfl)
theorem down_lhs (i : S8192x5120.Idx) (f : Fin 1536) : lidx_main_v19 i f = ix2 (n0 := 8192) (n1 := 1536) (i 0) f :=
  funext fun a => Fin.ext (by match a with | ⟨0, _⟩ => rfl | ⟨1, _⟩ => rfl)
theorem down_rhs (i : S8192x5120.Idx) (f : Fin 1536) : ridx_main_v19 i f = ix2 (n0 := 5120) (n1 := 1536) (i 1) f :=
  funext fun a => Fin.ext (by match a with | ⟨0, _⟩ => rfl | ⟨1, _⟩ => rfl)

variable (x0 : (⟨S8192x5120, .f32⟩ : BufTy).Contents (Elt Ideal)) (x1 : (⟨S1536x5120, .f32⟩ : BufTy).Contents (Elt Ideal))
  (x2 : (⟨S12x40, .f32⟩ : BufTy).Contents (Elt Ideal)) (x3 : (⟨S1536x5120, .f32⟩ : BufTy).Contents (Elt Ideal))
  (x4 : (⟨S12x40, .f32⟩ : BufTy).Contents (Elt Ideal)) (x5 : (⟨S5120x1536, .f32⟩ : BufTy).Contents (Elt Ideal))
  (x6 : (⟨S40x12, .f32⟩ : BufTy).Contents (Elt Ideal))

/-- The gate projection at an index. -/
theorem gate_eq (j : S8192x1536.Idx) :
    val_main_v15 (F := Ideal) x0 x1 x2 j = GatedMlp.proj x0 (val_main_v4 (F := Ideal) x1 x2) (j 0) (j 1) := by
  rw [val_main_v15_apply]
  unfold GatedMlp.proj
  simp only [gate_lhs, gate_rhs]

/-- The up projection at an index. -/
theorem up_eq (j : S8192x1536.Idx) :
    val_main_v16 (F := Ideal) x0 x3 x4 j = GatedMlp.proj x0 (val_main_v9 (F := Ideal) x3 x4) (j 0) (j 1) := by
  rw [val_main_v16_apply]
  unfold GatedMlp.proj
  simp only [up_lhs, up_rhs]

/-- The reference's hidden activations are the layer's. -/
theorem hidden_eq (j : S8192x1536.Idx) :
    val_main_v18 (F := Ideal) x0 x1 x2 x3 x4 j
      = GatedMlp.hiddenArr x0 (val_main_v4 (F := Ideal) x1 x2) (val_main_v9 (F := Ideal) x3 x4) j := by
  rw [val_main_v18_apply, val_main_v17_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  unfold GatedMlp.hiddenArr GatedMlp.hidden GatedMlp.gated Ideal.logistic
  simp only [Ideal.mulf_def, Ideal.hostDivf_def, Ideal.addf_def, Ideal.hostUnary_exp_def, Ideal.hostNegf_def,
    Ideal.negf_def, Ideal.ofBits_def, one_word]

/-- THE REFERENCE'S RESULT is the layer of its arguments. -/
theorem result_eq :
    val_main_v19 (F := Ideal) x0 x1 x2 x3 x4 x5 x6
      = GatedMlp.outArr (GatedMlp.hiddenArr x0 (val_main_v4 (F := Ideal) x1 x2) (val_main_v9 (F := Ideal) x3 x4))
          (val_main_v14 (F := Ideal) x5 x6) := by
  funext i
  rw [val_main_v19_apply]
  unfold GatedMlp.outArr GatedMlp.down
  refine Finset.sum_congr rfl fun f _ => ?_
  rw [down_lhs, down_rhs, hidden_eq]

end Cert.ReferenceIdeal.Layer

end
-- ==== Proof.lean ====
/-
  THE CERTIFICATE OF THE GATED FEED-FORWARD LAYER. The kernel rescales three weight matrices on the host, runs the
  gate/up kernel over 64 row tiles and the down kernel over 32 row tiles; the reference is the same layer in plain jnp.
  The three frame claims are the generated frames of the two printed kernels and the reference's run with its result
  dropped; the idealization rewrote nothing, so `preserves` is trivial; and at the ideal values both programs end with

      out(t, o) = ∑_f ((g · σ(g)) · u)(t, f) · Wd(o, f),   g = x · Wgᵀ,  u = x · Wuᵀ,

  of the launch memory's arguments: the kernel by reading each tile's write-back as a block of that one function and
  tiling the arrays (`Entry.result`), the reference operation by operation (`Layer.result_eq`). The kernel's bf16
  casts are the identity at the ideal values, σ is 1 / (1 + e^(−y)) by definition, and no sum is regrouped, so the
  equality holds at every extended real and the finiteness of the inputs is never used.
-/
import proofs.«129905_j19095424598383_2_alg».proof.Defs
import proofs.«129905_j19095424598383_2_alg».proof.Proof.Gen.Kernel
import proofs.«129905_j19095424598383_2_alg».proof.Proof.Gen.Kernel.Skeleton
import proofs.«129905_j19095424598383_2_alg».proof.Proof.Gen.Kernel.Launch
import proofs.«129905_j19095424598383_2_alg».proof.Proof.Gen.Kernel.Points
import proofs.«129905_j19095424598383_2_alg».proof.Proof.Gen.Kernel.Frame
import proofs.«129905_j19095424598383_2_alg».proof.Proof.Gen.KernelIdeal
import proofs.«129905_j19095424598383_2_alg».proof.Proof.Gen.KernelIdeal.Skeleton
import proofs.«129905_j19095424598383_2_alg».proof.Proof.Gen.KernelIdeal.Launch
import proofs.«129905_j19095424598383_2_alg».proof.Proof.Gen.KernelIdeal.Points
import proofs.«129905_j19095424598383_2_alg».proof.Proof.Gen.KernelIdeal.Frame
import proofs.«129905_j19095424598383_2_alg».proof.Proof.Gen.ReferenceIdeal
import proofs.«129905_j19095424598383_2_alg».proof.Proof.Gen.ReferenceIdeal.Run
import proofs.«129905_j19095424598383_2_alg».proof.Proof.Gen.ReferenceIdeal.Read
import proofs.«129905_j19095424598383_2_alg».proof.Proof.Gen.Pre_finite_inputs
import proofs.«129905_j19095424598383_2_alg».proof.Proof.KernelRun
import proofs.«129905_j19095424598383_2_alg».proof.Proof.Entry
import proofs.«129905_j19095424598383_2_alg».proof.Proof.ReferenceLayer
import Idealize.ShloMosaic.Adequacy
import Idealize.ShloMosaic.Init

noncomputable section

namespace Cert.Proof

open Idealize.ShloMosaic Idealize.SL.Sem Cert.Kernel

/-- The printed kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Entry.result m ρ c), (h c).2⟩)
    (Cert.KernelIdeal.Named.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Layer.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
